-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16x4096 : Shape := ⟨2, ![16, 4096]⟩
abbrev S4096 : Shape := ⟨1, ![4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x4096 .f32) (main_arg1 : FVec F S16x4096 .f32) (main_arg2 : FVec F S16x4096 .f32) (main_arg3 : FVec F S4096 .f32) (main_arg4 : FVec F S4096x4096 .f32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8192x4096 : Shape := ⟨2, ![8192, 4096]⟩
abbrev S16x4096 : Shape := ⟨2, ![16, 4096]⟩
abbrev S4096 : Shape := ⟨1, ![4096]⟩
abbrev S4096x4096 : Shape := ⟨2, ![4096, 4096]⟩
abbrev S1x4096 : Shape := ⟨2, ![1, 4096]⟩
abbrev S256x4096 : Shape := ⟨2, ![256, 4096]⟩
abbrev S256x16 : Shape := ⟨2, ![256, 16]⟩
abbrev S128x4096 : Shape := ⟨2, ![128, 4096]⟩

abbrev nBuf : Space → Nat
  | .hbm => 13
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S16x4096, .f32⟩
  | .hbm, ⟨2, _⟩ => ⟨S16x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S16x4096, .bf16⟩
  | .hbm, ⟨9, _⟩ => ⟨S16x4096, .bf16⟩
  | .hbm, ⟨10, _⟩ => ⟨S4096x4096, .bf16⟩
  | .hbm, ⟨11, _⟩ => ⟨S8192x4096, .bf16⟩
  | .hbm, ⟨12, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S16x4096, .bf16⟩
  | .local _ .vmem, ⟨3, _⟩ => ⟨S16x4096, .bf16⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | .local _ .vmem, ⟨7, _⟩ => ⟨S128x4096, .bf16⟩
  | .local _ .vmem, ⟨8, _⟩ => ⟨S128x4096, .bf16⟩
  | .local _ .vmem, ⟨9, _⟩ => ⟨S4096x4096, .bf16⟩
  | .local _ .vmem, ⟨10, _⟩ => ⟨S1x4096, .f32⟩
  | .local _ .vmem, ⟨11, _⟩ => ⟨S128x4096, .f32⟩
  | .local _ .vmem, ⟨12, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4096_S1x4096 : S4096.ShapeCasts S1x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  packedbf16_S256x4096_S256x4096_0_0 : (Rect.unit (s := S256x4096) ![0, 0] S256x4096.size inb_S256x4096_S256x4096_0_0).PackedRows (EltTy.packing .bf16)
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  broadcasts_S1x4096_S128x4096 : S1x4096.Broadcasts S128x4096
  dot_S256x4096_S16x4096_S256x16_1_1_0_0_n_n_wf : DotDims.WF S256x4096 S16x4096 S256x16 [1] [1] [0] [0] [] []
  dot_S256x16_S16x4096_S256x4096_1_0_0_1_n_n_wf : DotDims.WF S256x16 S16x4096 S256x4096 [1] [0] [0] [1] [] []
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .bf16 = 32 ∨ (Rect.block (s := S16x4096) S16x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .bf16 = 32 ∨ (Rect.block (s := S16x4096) S16x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .bf16 = 32 ∨ (Rect.block (s := S8192x4096) S256x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .bf16 = 32 ∨ (Rect.block (s := S8192x4096) S128x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S8192x4096.size a
  hwx1_3 : ∀ i : grid1.Coords, EltTy.bits .f32 = 32 ∨ (Rect.block (s := S8192x4096) S128x4096.size (cc1_transform_3 i) (hinb1_3 i)).WholeWords (EltTy.packing .f32)

variable [Facts₀]

def dot_S256x4096_S16x4096_S256x16_1_1_0_0_n_n : DotDims S256x4096 S16x4096 S256x16 where
  lhsContracting := [1]
  rhsContracting := [1]
  lhsNonContracting := [0]
  rhsNonContracting := [0]
  lhsBatch := []
  rhsBatch := []
  wf := dot_S256x4096_S16x4096_S256x16_1_1_0_0_n_n_wf
def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf
def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S16x4096 : Shape := ⟨2, ![16, 4096]⟩
abbrev S4096 : Shape := ⟨1, ![4096]⟩
abbrev S4096x4096 : Shape := ⟨2, ![4096, 4096]⟩
abbrev S8192x16 : Shape := ⟨2, ![8192, 16]⟩
abbrev S1x4096 : Shape := ⟨2, ![1, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16x4096, .f32⟩
  | .hbm, ⟨2, _⟩ => ⟨S16x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S8192x16, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S16x4096_S8192x16_1_1_0_0_n_n_wf : DotDims.WF S8192x4096 S16x4096 S8192x16 [1] [1] [0] [0] [] []
  dot_S8192x16_S16x4096_S8192x4096_1_0_0_1_n_n_wf : DotDims.WF S8192x16 S16x4096 S8192x4096 [1] [0] [0] [1] [] []
  dot_S8192x4096_S4096x4096_S8192x4096_1_0_0_1_n_n_wf : DotDims.WF S8192x4096 S4096x4096 S8192x4096 [1] [0] [0] [1] [] []

variable [Facts₀]

def dot_S8192x4096_S16x4096_S8192x16_1_1_0_0_n_n : DotDims S8192x4096 S16x4096 S8192x16 where
  lhsContracting := [1]
  rhsContracting := [1]
  lhsNonContracting := [0]
  rhsNonContracting := [0]
  lhsBatch := []
  rhsBatch := []
  wf := dot_S8192x4096_S16x4096_S8192x16_1_1_0_0_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Payloads.lean ====
/-
  The two kernel bodies read at one element of their output block, over the extended reals.

  First body, on a block of 256 rows: the rows' products with the 16 rows of H (contracted over the 4096 columns of
  both), those 256 × 16 numbers against the 16 × 4096 matrix G, plus the bias row, clamped below at the zero word.
  Second body, on a block of 128 rows: the rows against the 4096 × 4096 weight, plus the bias row.
  A matrix product into a zero accumulator is the plain finite sum over the contracted index; the changes of float
  format are the identity on extended reals; a row of shape [1, 4096] copied down the rows is read at (0, column).
-/
import proofs.«111444_j24498493456624_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The three matrix products at an output element

For each product: which coordinate of an operand's index comes from the output index and which from the contracted
index, then the product into the zero accumulator as the sum over the contracted coordinate. -/

theorem xh_l0 (i : S256x16.Idx) (q : dot_S256x4096_S16x4096_S256x16_1_1_0_0_n_n.contr.Idx) : (dot_S256x4096_S16x4096_S256x16_1_1_0_0_n_n.lhsIdx i q 0).val = (i 0).val := by
  unfold DotDims.lhsIdx
  rw [dif_neg (show ¬(0 : Fin S256x4096.rank) ∈ dot_S256x4096_S16x4096_S256x16_1_1_0_0_n_n.lhsBatch by decide), dif_pos (show (0 : Fin S256x4096.rank) ∈ dot_S256x4096_S16x4096_S256x16_1_1_0_0_n_n.lhsNonContracting by decide)]
  rfl
theorem xh_l1 (i : S256x16.Idx) (q : dot_S256x4096_S16x4096_S256x16_1_1_0_0_n_n.contr.Idx) : (dot_S256x4096_S16x4096_S256x16_1_1_0_0_n_n.lhsIdx i q 1).val = (q ⟨0, by decide⟩).val :=
  dot_S256x4096_S16x4096_S256x16_1_1_0_0_n_n.lhsIdx_val_of_single rfl i q
theorem xh_r0 (i : S256x16.Idx) (q : dot_S256x4096_S16x4096_S256x16_1_1_0_0_n_n.contr.Idx) : (dot_S256x4096_S16x4096_S256x16_1_1_0_0_n_n.rhsIdx i q 0).val = (i 1).val := by
  unfold DotDims.rhsIdx
  rw [dif_neg (show ¬(0 : Fin S16x4096.rank) ∈ dot_S256x4096_S16x4096_S256x16_1_1_0_0_n_n.rhsBatch by decide), dif_pos (show (0 : Fin S16x4096.rank) ∈ dot_S256x4096_S16x4096_S256x16_1_1_0_0_n_n.rhsNonContracting by decide)]
  rfl
theorem xh_r1 (i : S256x16.Idx) (q : dot_S256x4096_S16x4096_S256x16_1_1_0_0_n_n.contr.Idx) : (dot_S256x4096_S16x4096_S256x16_1_1_0_0_n_n.rhsIdx i q 1).val = (q ⟨0, by decide⟩).val :=
  dot_S256x4096_S16x4096_S256x16_1_1_0_0_n_n.rhsIdx_val_of_single rfl i q

/-- Rows of the left operand against ROWS of the right one: both contract their second axis. -/
theorem rows_rows (l : FVec Ideal S256x4096 .bf16) (r : FVec Ideal S16x4096 .bf16) (p : Fin 256) (q : Fin 16) :
    matmul dot_S256x4096_S16x4096_S256x16_1_1_0_0_n_n none l r (constant (F := Ideal) S256x16 .f32 0x00000000#32) (ix2 p q)
      = ∑ k : Fin 4096, l (ix2 p k) * r (ix2 q k) := by
  simp only [matmul]
  rw [Ideal.matmul_constant_zero_apply, ← Equiv.sum_comp (contrEquiv1 dot_S256x4096_S16x4096_S256x16_1_1_0_0_n_n 4096 rfl rfl).symm]
  refine Finset.sum_congr rfl fun k _ => ?_
  have hk := contrEquiv1_symm_val dot_S256x4096_S16x4096_S256x16_1_1_0_0_n_n 4096 rfl rfl k
  have el : dot_S256x4096_S16x4096_S256x16_1_1_0_0_n_n.lhsIdx (ix2 p q) ((contrEquiv1 dot_S256x4096_S16x4096_S256x16_1_1_0_0_n_n 4096 rfl rfl).symm k) = ix2 p k := funext fun a => Fin.ext (by
    match a with
    | ⟨0, _⟩ => exact xh_l0 _ _
    | ⟨1, _⟩ => exact (xh_l1 _ _).trans hk)
  have er : dot_S256x4096_S16x4096_S256x16_1_1_0_0_n_n.rhsIdx (ix2 p q) ((contrEquiv1 dot_S256x4096_S16x4096_S256x16_1_1_0_0_n_n 4096 rfl rfl).symm k) = ix2 q k := funext fun a => Fin.ext (by
    match a with
    | ⟨0, _⟩ => exact xh_r0 _ _
    | ⟨1, _⟩ => exact (xh_r1 _ _).trans hk)
  rw [el, er]

theorem hg_l0 (i : S256x4096.Idx) (q : dot_S256x16_S16x4096_S256x4096_1_0_0_1_n_n.contr.Idx) : (dot_S256x16_S16x4096_S256x4096_1_0_0_1_n_n.lhsIdx i q 0).val = (i 0).val := by
  unfold DotDims.lhsIdx
  rw [dif_neg (show ¬(0 : Fin S256x16.rank) ∈ dot_S256x16_S16x4096_S256x4096_1_0_0_1_n_n.lhsBatch by decide), dif_pos (show (0 : Fin S256x16.rank) ∈ dot_S256x16_S16x4096_S256x4096_1_0_0_1_n_n.lhsNonContracting by decide)]
  rfl
theorem hg_l1 (i : S256x4096.Idx) (q : dot_S256x16_S16x4096_S256x4096_1_0_0_1_n_n.contr.Idx) : (dot_S256x16_S16x4096_S256x4096_1_0_0_1_n_n.lhsIdx i q 1).val = (q ⟨0, by decide⟩).val :=
  dot_S256x16_S16x4096_S256x4096_1_0_0_1_n_n.lhsIdx_val_of_single rfl i q
theorem hg_r1 (i : S256x4096.Idx) (q : dot_S256x16_S16x4096_S256x4096_1_0_0_1_n_n.contr.Idx) : (dot_S256x16_S16x4096_S256x4096_1_0_0_1_n_n.rhsIdx i q 1).val = (i 1).val := by
  unfold DotDims.rhsIdx
  rw [dif_neg (show ¬(1 : Fin S16x4096.rank) ∈ dot_S256x16_S16x4096_S256x4096_1_0_0_1_n_n.rhsBatch by decide), dif_pos (show (1 : Fin S16x4096.rank) ∈ dot_S256x16_S16x4096_S256x4096_1_0_0_1_n_n.rhsNonContracting by decide)]
  rfl
theorem hg_r0 (i : S256x4096.Idx) (q : dot_S256x16_S16x4096_S256x4096_1_0_0_1_n_n.contr.Idx) : (dot_S256x16_S16x4096_S256x4096_1_0_0_1_n_n.rhsIdx i q 0).val = (q ⟨0, by decide⟩).val :=
  dot_S256x16_S16x4096_S256x4096_1_0_0_1_n_n.rhsIdx_val_of_single rfl i q

/-- Rows of a 256 × 16 matrix against columns of a 16 × 4096 one. -/
theorem rows_cols16 (l : FVec Ideal S256x16 .bf16) (r : FVec Ideal S16x4096 .bf16) (p : Fin 256) (q : Fin 4096) :
    matmul dot_S256x16_S16x4096_S256x4096_1_0_0_1_n_n none l r (constant (F := Ideal) S256x4096 .f32 0x00000000#32) (ix2 p q)
      = ∑ k : Fin 16, l (ix2 p k) * r (ix2 k q) := by
  simp only [matmul]
  rw [Ideal.matmul_constant_zero_apply, ← Equiv.sum_comp (contrEquiv1 dot_S256x16_S16x4096_S256x4096_1_0_0_1_n_n 16 rfl rfl).symm]
  refine Finset.sum_congr rfl fun k _ => ?_
  have hk := contrEquiv1_symm_val dot_S256x16_S16x4096_S256x4096_1_0_0_1_n_n 16 rfl rfl k
  have el : dot_S256x16_S16x4096_S256x4096_1_0_0_1_n_n.lhsIdx (ix2 p q) ((contrEquiv1 dot_S256x16_S16x4096_S256x4096_1_0_0_1_n_n 16 rfl rfl).symm k) = ix2 p k := funext fun a => Fin.ext (by
    match a with
    | ⟨0, _⟩ => exact hg_l0 _ _
    | ⟨1, _⟩ => exact (hg_l1 _ _).trans hk)
  have er : dot_S256x16_S16x4096_S256x4096_1_0_0_1_n_n.rhsIdx (ix2 p q) ((contrEquiv1 dot_S256x16_S16x4096_S256x4096_1_0_0_1_n_n 16 rfl rfl).symm k) = ix2 k q := funext fun a => Fin.ext (by
    match a with
    | ⟨0, _⟩ => exact (hg_r0 _ _).trans hk
    | ⟨1, _⟩ => exact hg_r1 _ _)
  rw [el, er]

theorem hw_l0 (i : S128x4096.Idx) (q : dot_S128x4096_S4096x4096_S128x4096_1_0_0_1_n_n.contr.Idx) : (dot_S128x4096_S4096x4096_S128x4096_1_0_0_1_n_n.lhsIdx i q 0).val = (i 0).val := by
  unfold DotDims.lhsIdx
  rw [dif_neg (show ¬(0 : Fin S128x4096.rank) ∈ dot_S128x4096_S4096x4096_S128x4096_1_0_0_1_n_n.lhsBatch by decide), dif_pos (show (0 : Fin S128x4096.rank) ∈ dot_S128x4096_S4096x4096_S128x4096_1_0_0_1_n_n.lhsNonContracting by decide)]
  rfl
theorem hw_l1 (i : S128x4096.Idx) (q : dot_S128x4096_S4096x4096_S128x4096_1_0_0_1_n_n.contr.Idx) : (dot_S128x4096_S4096x4096_S128x4096_1_0_0_1_n_n.lhsIdx i q 1).val = (q ⟨0, by decide⟩).val :=
  dot_S128x4096_S4096x4096_S128x4096_1_0_0_1_n_n.lhsIdx_val_of_single rfl i q
theorem hw_r1 (i : S128x4096.Idx) (q : dot_S128x4096_S4096x4096_S128x4096_1_0_0_1_n_n.contr.Idx) : (dot_S128x4096_S4096x4096_S128x4096_1_0_0_1_n_n.rhsIdx i q 1).val = (i 1).val := by
  unfold DotDims.rhsIdx
  rw [dif_neg (show ¬(1 : Fin S4096x4096.rank) ∈ dot_S128x4096_S4096x4096_S128x4096_1_0_0_1_n_n.rhsBatch by decide), dif_pos (show (1 : Fin S4096x4096.rank) ∈ dot_S128x4096_S4096x4096_S128x4096_1_0_0_1_n_n.rhsNonContracting by decide)]
  rfl
theorem hw_r0 (i : S128x4096.Idx) (q : dot_S128x4096_S4096x4096_S128x4096_1_0_0_1_n_n.contr.Idx) : (dot_S128x4096_S4096x4096_S128x4096_1_0_0_1_n_n.rhsIdx i q 0).val = (q ⟨0, by decide⟩).val :=
  dot_S128x4096_S4096x4096_S128x4096_1_0_0_1_n_n.rhsIdx_val_of_single rfl i q

/-- Rows of a 128 × 4096 block against columns of the 4096 × 4096 weight. -/
theorem rows_cols (l : FVec Ideal S128x4096 .bf16) (r : FVec Ideal S4096x4096 .bf16) (p : Fin 128) (q : Fin 4096) :
    matmul dot_S128x4096_S4096x4096_S128x4096_1_0_0_1_n_n none l r (constant (F := Ideal) S128x4096 .f32 0x00000000#32) (ix2 p q)
      = ∑ k : Fin 4096, l (ix2 p k) * r (ix2 k q) := by
  simp only [matmul]
  rw [Ideal.matmul_constant_zero_apply, ← Equiv.sum_comp (contrEquiv1 dot_S128x4096_S4096x4096_S128x4096_1_0_0_1_n_n 4096 rfl rfl).symm]
  refine Finset.sum_congr rfl fun k _ => ?_
  have hk := contrEquiv1_symm_val dot_S128x4096_S4096x4096_S128x4096_1_0_0_1_n_n 4096 rfl rfl k
  have el : dot_S128x4096_S4096x4096_S128x4096_1_0_0_1_n_n.lhsIdx (ix2 p q) ((contrEquiv1 dot_S128x4096_S4096x4096_S128x4096_1_0_0_1_n_n 4096 rfl rfl).symm k) = ix2 p k := funext fun a => Fin.ext (by
    match a with
    | ⟨0, _⟩ => exact hw_l0 _ _
    | ⟨1, _⟩ => exact (hw_l1 _ _).trans hk)
  have er : dot_S128x4096_S4096x4096_S128x4096_1_0_0_1_n_n.rhsIdx (ix2 p q) ((contrEquiv1 dot_S128x4096_S4096x4096_S128x4096_1_0_0_1_n_n 4096 rfl rfl).symm k) = ix2 k q := funext fun a => Fin.ext (by
    match a with
    | ⟨0, _⟩ => exact (hw_r0 _ _).trans hk
    | ⟨1, _⟩ => exact hw_r1 _ _)
  rw [el, er]

/-! ## The two bodies at an output element -/

/-- The first body's block at (p, q): the low-rank product, the bias row, the clamp at zero. -/
theorem lowRank_at (x0 : Vec Ideal S256x4096 .f32) (x1 x2 : Vec Ideal S16x4096 .bf16) (x3 : Vec Ideal S1x4096 .f32)
    (p : Fin 256) (q : Fin 4096) :
    k0_pay1 (F := Ideal) x0 x1 x2 x3 (ix2 p q)
      = max ((∑ r : Fin 16, (∑ k : Fin 4096, x0 (ix2 p k) * x1 (ix2 r k)) * x2 (ix2 r q)) + x3 (ix2 (0 : Fin 1) q))
          (Ideal.ofBits .f32 0x00000000#32) := by
  unfold k0_pay1
  simp only [shapeCast_self]
  show max (matmul dot_S256x16_S16x4096_S256x4096_1_0_0_1_n_n none (truncf .bf16 (matmul dot_S256x4096_S16x4096_S256x16_1_1_0_0_n_n none (truncf .bf16 x0 bitsLt_bf16_f32) x1 (constant (F := Ideal) S256x16 .f32 0x00000000#32)) bitsLt_bf16_f32) x2
      (constant (F := Ideal) S256x4096 .f32 0x00000000#32) (ix2 p q) + broadcastTo S256x4096 x3 broadcasts_S1x4096_S256x4096 (ix2 p q)) (Ideal.ofBits .f32 0x00000000#32) = _
  rw [rows_cols16, broadcastTo_1b_ab_apply]
  refine congrArg (fun s => max (s + x3 (ix2 (0 : Fin 1) q)) (Ideal.ofBits .f32 0x00000000#32)) ?_
  refine Finset.sum_congr rfl fun r _ => ?_
  refine congrArg (· * x2 (ix2 r q)) ?_
  exact rows_rows (truncf .bf16 x0 bitsLt_bf16_f32) x1 p r

/-- The second body's block at (p, q): the dense product and the bias row. -/
theorem dense_at (x0 : Vec Ideal S128x4096 .bf16) (x1 : Vec Ideal S4096x4096 .bf16) (x2 : Vec Ideal S1x4096 .f32)
    (p : Fin 128) (q : Fin 4096) :
    k1_pay1 (F := Ideal) x0 x1 x2 (ix2 p q)
      = (∑ k : Fin 4096, x0 (ix2 p k) * x1 (ix2 k q)) + x2 (ix2 (0 : Fin 1) q) := by
  unfold k1_pay1
  simp only [shapeCast_self]
  show matmul dot_S128x4096_S4096x4096_S128x4096_1_0_0_1_n_n none x0 x1 (constant (F := Ideal) S128x4096 .f32 0x00000000#32) (ix2 p q)
      + broadcastTo S128x4096 x2 broadcasts_S1x4096_S128x4096 (ix2 p q) = _
  rw [rows_cols, broadcastTo_1b_ab_apply]

end Cert.KernelIdeal.Body

end
-- ==== Proof.LowRankDense.lean ====
/-
  The function both programs compute, over the extended reals, index by index.

  For x [8192, 4096], H and G [16, 4096], b1 [4096], W2 [4096, 4096], b2 [4096]:
    hidden[b, n] = max (Σ_r (Σ_k x[b, k] · H[r, k]) · G[r, n] + b1[n]) 0        (a rank-16 factorization of a square weight, then relu)
    out[b, o]    = Σ_n hidden[b, n] · W2[n, o] + b2[o]                           (a dense layer)
  The sums are finite sums in the extended reals; addition there is commutative and associative, so no order of
  summation is recorded, and nothing below asks the entries to be finite. The zero under the maximum is kept as the
  f32 zero word, the same word on both sides.
-/
import Idealize.ShloMosaic.PureOps.Ideal
import Idealize.ShloMosaic.Lib.ValueIdx

noncomputable section

open scoped BigOperators

namespace Cert.LowRankDense

open Idealize.ShloMosaic Idealize.ShloMosaic.ValueIdx

/-- A matrix of 8192 rows and 4096 columns from its entries by coordinates. -/
def arr (f : Fin 8192 → Fin 4096 → EReal) : (⟨2, ![8192, 4096]⟩ : Shape).Idx → EReal :=
  fun i => f ⟨(i 0).val, (i 0).isLt⟩ ⟨(i 1).val, (i 1).isLt⟩

theorem arr_ix2 (f : Fin 8192 → Fin 4096 → EReal) (b : Fin 8192) (n : Fin 4096) : arr f (ix2 b n) = f b n := rfl

/-- Row `b` of `x` against row `r` of `H`, then the 16 such numbers against column `n` of `G`, plus the bias, clamped
    below at zero. -/
def lowRank (x : (⟨2, ![8192, 4096]⟩ : Shape).Idx → EReal) (H G : (⟨2, ![16, 4096]⟩ : Shape).Idx → EReal)
    (b1 : Fin 4096 → EReal) (b : Fin 8192) (n : Fin 4096) : EReal :=
  max ((∑ r : Fin 16, (∑ k : Fin 4096, x (ix2 b k) * H (ix2 r k)) * G (ix2 r n)) + b1 n) (Ideal.ofBits .f32 0x00000000#32)

/-- Row `b` of `h` against column `o` of `W`, plus the bias. -/
def dense (h : (⟨2, ![8192, 4096]⟩ : Shape).Idx → EReal) (W : (⟨2, ![4096, 4096]⟩ : Shape).Idx → EReal)
    (b2 : Fin 4096 → EReal) (b : Fin 8192) (o : Fin 4096) : EReal :=
  (∑ n : Fin 4096, h (ix2 b n) * W (ix2 n o)) + b2 o

/-- The two layers composed: the whole result array. -/
def layer (x : (⟨2, ![8192, 4096]⟩ : Shape).Idx → EReal) (H G : (⟨2, ![16, 4096]⟩ : Shape).Idx → EReal)
    (b1 : Fin 4096 → EReal) (W2 : (⟨2, ![4096, 4096]⟩ : Shape).Idx → EReal) (b2 : Fin 4096 → EReal) :
    (⟨2, ![8192, 4096]⟩ : Shape).Idx → EReal :=
  arr (dense (arr (lowRank x H G b1)) W2 b2)

end Cert.LowRankDense

end
-- ==== Proof.Hidden.lean ====
/-
  The first region's output array: the hidden activations.

  The region walks 32 grid points; point t stages rows 256·t … 256·t + 255 of x, the whole of H and G (their bf16
  copies) and the bias row, and writes back the same 256 rows of the output. What a point writes back is therefore its
  256 rows of ONE function of the whole arrays as the region finds them — `LowRankDense.lowRank` — and the 32 blocks
  tile the 8192 rows, so the array the region leaves is that function.
-/
import proofs.«111444_j24498493456624_2_alg».proof.Proof.Gen.KernelIdeal.Frame
import proofs.«111444_j24498493456624_2_alg».proof.Proof.Payloads
import proofs.«111444_j24498493456624_2_alg».proof.Proof.LowRankDense

noncomputable section

open scoped BigOperators

namespace Cert.KernelIdeal.Hidden

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The block indices of the five windows at a grid point: x and the output move down one block of rows per point, the
    three resident operands stay at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every block of rows is some point's. -/
theorem block_onto : ∀ q : Fin 32, ∃ t : Fin cfg0.N, win0_4.index t (0 : Fin 2) = q.val :=
  (by decide +kernel : ∀ q : Fin 32, ∃ t : Fin grid0.N, win0_4.index t (0 : Fin 2) = q.val)

/-- Row `p` of point `t`'s block, as a row of the whole array. -/
def row (t : Fin cfg0.N) (p : Fin 256) : Fin 8192 :=
  ⟨t.val * 256 + p.val, by have h : t.val < 32 := lt_of_lt_of_eq t.isLt N_0; have := p.isLt; omega⟩

/-- The hidden activations as a function of the arrays the region finds. -/
def hidden (c : Dev nD) : Buf (Elt Ideal) ((c : Thread nD τ).loc main_v5) :=
  LowRankDense.arr (LowRankDense.lowRank (V c main_arg0) (V c main_v2) (V c main_v3) (fun n => V c main_v0 (ix2 (0 : Fin 1) n)))

/-! ## The windows' blocks read by coordinates -/

theorem x_block (c : Dev nD) (t : Fin cfg0.N) (p : Fin 256) (k : Fin 4096) :
    (iblk0 V c 0 t : Vec Ideal S256x4096 .f32) (ix2 p k) = V c main_arg0 (ix2 (row t p) k) := by
  obtain ⟨e0, e1, -⟩ := block_index t
  show V c main_arg0 (((cfg0.win 0).blk t).view.emb (ix2 p k)) = _
  refine congrArg (V c main_arg0) (funext fun a => Fin.ext ?_)
  match a with
  | ⟨0, _⟩ => show win0_0.index t (0 : Fin 2) * 256 + 1 * p.val = t.val * 256 + p.val; omega
  | ⟨1, _⟩ => show win0_0.index t (1 : Fin 2) * 4096 + 1 * k.val = k.val; omega

theorem H_block (c : Dev nD) (t : Fin cfg0.N) (r : Fin 16) (k : Fin 4096) :
    (iblk0 V c 1 t : Vec Ideal S16x4096 .bf16) (ix2 r k) = V c main_v2 (ix2 r k) := by
  obtain ⟨-, -, e0, e1, -⟩ := block_index t
  show V c main_v2 (((cfg0.win 1).blk t).view.emb (ix2 r k)) = _
  refine congrArg (V c main_v2) (funext fun a => Fin.ext ?_)
  match a with
  | ⟨0, _⟩ => show win0_1.index t (0 : Fin 2) * 16 + 1 * r.val = r.val; omega
  | ⟨1, _⟩ => show win0_1.index t (1 : Fin 2) * 4096 + 1 * k.val = k.val; omega

theorem G_block (c : Dev nD) (t : Fin cfg0.N) (r : Fin 16) (k : Fin 4096) :
    (iblk0 V c 2 t : Vec Ideal S16x4096 .bf16) (ix2 r k) = V c main_v3 (ix2 r k) := by
  obtain ⟨-, -, -, -, e0, e1, -⟩ := block_index t
  show V c main_v3 (((cfg0.win 2).blk t).view.emb (ix2 r k)) = _
  refine congrArg (V c main_v3) (funext fun a => Fin.ext ?_)
  match a with
  | ⟨0, _⟩ => show win0_2.index t (0 : Fin 2) * 16 + 1 * r.val = r.val; omega
  | ⟨1, _⟩ => show win0_2.index t (1 : Fin 2) * 4096 + 1 * k.val = k.val; omega

theorem bias_block (c : Dev nD) (t : Fin cfg0.N) (k : Fin 4096) :
    (iblk0 V c 3 t : Vec Ideal S1x4096 .f32) (ix2 (0 : Fin 1) k) = V c main_v0 (ix2 (0 : Fin 1) k) := by
  obtain ⟨-, -, -, -, -, -, e0, e1, -⟩ := block_index t
  show V c main_v0 (((cfg0.win 3).blk t).view.emb (ix2 (0 : Fin 1) k)) = _
  refine congrArg (V c main_v0) (funext fun a => Fin.ext ?_)
  match a with
  | ⟨0, _⟩ => show win0_3.index t (0 : Fin 2) * 1 + 1 * 0 = 0; omega
  | ⟨1, _⟩ => show win0_3.index t (1 : Fin 2) * 4096 + 1 * k.val = k.val; omega

theorem out_block (t : Fin cfg0.N) (p : Fin 256) (q : Fin 4096) :
    ((cfg0.win 4).blk t).view.emb (ix2 p q) = ix2 (row t p) q := by
  obtain ⟨-, -, -, -, -, -, -, -, e0, e1⟩ := block_index t
  refine funext fun a => Fin.ext ?_
  match a with
  | ⟨0, _⟩ => show win0_4.index t (0 : Fin 2) * 256 + 1 * p.val = t.val * 256 + p.val; omega
  | ⟨1, _⟩ => show win0_4.index t (1 : Fin 2) * 4096 + 1 * q.val = q.val; omega

/-! ## What a point writes back, the cover, the array -/

/-- Point `t` writes back its 256 rows of `hidden`. -/
theorem flushed_eq (c : Dev nD) (t : Fin cfg0.N) :
    (dat0 V c).flushed 4 t = ((cfg0.win 4).blk t).view.read (Elt Ideal) (hidden V c) := by
  show (cfg0.win 4).cut (grid0.coords t) ((dat0 V c).after 4 t) = _
  rw [after0_4]
  unfold out0_4
  rw [View.canon_unit_zero zeros]
  simp only [View.ld_unit_zero (S := S256x4096) zeros, View.ld_unit_zero (S := S16x4096) zeros, View.ld_unit_zero (S := S1x4096) zeros]
  funext j
  obtain ⟨p, q, rfl⟩ : ∃ (p : Fin 256) (q : Fin 4096), j = ix2 p q := ⟨j 0, j 1, eq_ix2 j⟩
  show k0_pay1 (F := Ideal) (iblk0 V c 0 t) (iblk0 V c 1 t) (iblk0 V c 2 t) (iblk0 V c 3 t) (ix2 p q)
    = hidden V c (((cfg0.win 4).blk t).view.emb (ix2 p q))
  rw [Body.lowRank_at, out_block t p q]
  unfold hidden
  rw [LowRankDense.arr_ix2]
  unfold LowRankDense.lowRank
  simp only [x_block V c t, H_block V c t, G_block V c t, bias_block V c t]

/-- An index of the array is in point `t`'s block iff each coordinate is in the block's range on its axis. -/
theorem mem_block (t : Fin cfg0.N) (i : S8192x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v5).slice (win0_4.rect t)).set ↔ _
  rw [View.set_slice_whole, Rect.mem_set_unit]
  exact Iff.rfl

/-- Every row is in the block of the point numbered by its quotient by 256. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := block_onto ⟨(i 0).val / 256, by omega⟩
  have q0 : win0_4.index t (0 : Fin 2) = (i 0).val / 256 := ht
  obtain ⟨-, -, -, -, -, -, -, -, -, q1⟩ := block_index t
  refine ⟨t, flush0_4 t, ?_⟩
  rw [mem_block]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- The array the first region leaves is `hidden` of the arrays it found. -/
theorem final (c : Dev nD) : (dat0 V c).arrAt 4 cfg0.N = hidden V c :=
  (dat0 V c).arrAt_eq_of_cover 4 (hidden V c) (fun t _ => flushed_eq V c t) covered

end Cert.KernelIdeal.Hidden

end
-- ==== Proof.Output.lean ====
/-
  The second region's output array: the result.

  The region walks 64 grid points; point t stages rows 128·t … 128·t + 127 of the hidden activations, the whole
  4096 × 4096 weight (its bf16 copy) and the bias row, and writes back the same 128 rows of the result. What a point
  writes back is its 128 rows of ONE function of the whole arrays as the region finds them — `LowRankDense.dense` — and
  the 64 blocks tile the 8192 rows, so the array the region leaves is that function.
-/
import proofs.«111444_j24498493456624_2_alg».proof.Proof.Gen.KernelIdeal.Frame
import proofs.«111444_j24498493456624_2_alg».proof.Proof.Payloads
import proofs.«111444_j24498493456624_2_alg».proof.Proof.LowRankDense

noncomputable section

open scoped BigOperators

namespace Cert.KernelIdeal.Output

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The block indices of the four windows at a grid point: the hidden activations and the result move down one block of
    rows per point, the weight and the bias row stay at block (0, 0). -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block of rows is some point's. -/
theorem block_onto : ∀ q : Fin 64, ∃ t : Fin cfg1.N, win1_3.index t (0 : Fin 2) = q.val :=
  (by decide +kernel : ∀ q : Fin 64, ∃ t : Fin grid1.N, win1_3.index t (0 : Fin 2) = q.val)

/-- Row `p` of point `t`'s block, as a row of the whole array. -/
def row (t : Fin cfg1.N) (p : Fin 128) : Fin 8192 :=
  ⟨t.val * 128 + p.val, by have h : t.val < 64 := lt_of_lt_of_eq t.isLt N_1; have := p.isLt; omega⟩

/-- The result as a function of the arrays the region finds. -/
def result (c : Dev nD) : Buf (Elt Ideal) ((c : Thread nD τ).loc main_v6) :=
  LowRankDense.arr (LowRankDense.dense (V c main_v5) (V c main_v4) (fun o => V c main_v1 (ix2 (0 : Fin 1) o)))

/-! ## The windows' blocks read by coordinates -/

theorem h_block (c : Dev nD) (t : Fin cfg1.N) (p : Fin 128) (k : Fin 4096) :
    (iblk1 V c 0 t : Vec Ideal S128x4096 .bf16) (ix2 p k) = V c main_v5 (ix2 (row t p) k) := by
  obtain ⟨e0, e1, -⟩ := block_index t
  show V c main_v5 (((cfg1.win 0).blk t).view.emb (ix2 p k)) = _
  refine congrArg (V c main_v5) (funext fun a => Fin.ext ?_)
  match a with
  | ⟨0, _⟩ => show win1_0.index t (0 : Fin 2) * 128 + 1 * p.val = t.val * 128 + p.val; omega
  | ⟨1, _⟩ => show win1_0.index t (1 : Fin 2) * 4096 + 1 * k.val = k.val; omega

theorem W_block (c : Dev nD) (t : Fin cfg1.N) (k o : Fin 4096) :
    (iblk1 V c 1 t : Vec Ideal S4096x4096 .bf16) (ix2 k o) = V c main_v4 (ix2 k o) := by
  obtain ⟨-, -, e0, e1, -⟩ := block_index t
  show V c main_v4 (((cfg1.win 1).blk t).view.emb (ix2 k o)) = _
  refine congrArg (V c main_v4) (funext fun a => Fin.ext ?_)
  match a with
  | ⟨0, _⟩ => show win1_1.index t (0 : Fin 2) * 4096 + 1 * k.val = k.val; omega
  | ⟨1, _⟩ => show win1_1.index t (1 : Fin 2) * 4096 + 1 * o.val = o.val; omega

theorem bias_block (c : Dev nD) (t : Fin cfg1.N) (o : Fin 4096) :
    (iblk1 V c 2 t : Vec Ideal S1x4096 .f32) (ix2 (0 : Fin 1) o) = V c main_v1 (ix2 (0 : Fin 1) o) := by
  obtain ⟨-, -, -, -, e0, e1, -⟩ := block_index t
  show V c main_v1 (((cfg1.win 2).blk t).view.emb (ix2 (0 : Fin 1) o)) = _
  refine congrArg (V c main_v1) (funext fun a => Fin.ext ?_)
  match a with
  | ⟨0, _⟩ => show win1_2.index t (0 : Fin 2) * 1 + 1 * 0 = 0; omega
  | ⟨1, _⟩ => show win1_2.index t (1 : Fin 2) * 4096 + 1 * o.val = o.val; omega

theorem out_block (t : Fin cfg1.N) (p : Fin 128) (q : Fin 4096) :
    ((cfg1.win 3).blk t).view.emb (ix2 p q) = ix2 (row t p) q := by
  obtain ⟨-, -, -, -, -, -, e0, e1⟩ := block_index t
  refine funext fun a => Fin.ext ?_
  match a with
  | ⟨0, _⟩ => show win1_3.index t (0 : Fin 2) * 128 + 1 * p.val = t.val * 128 + p.val; omega
  | ⟨1, _⟩ => show win1_3.index t (1 : Fin 2) * 4096 + 1 * q.val = q.val; omega

/-! ## What a point writes back, the cover, the array -/

/-- Point `t` writes back its 128 rows of `result`. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero zeros]
  simp only [View.ld_unit_zero (S := S128x4096) zeros, View.ld_unit_zero (S := S4096x4096) zeros, View.ld_unit_zero (S := S1x4096) zeros]
  funext j
  obtain ⟨p, q, rfl⟩ : ∃ (p : Fin 128) (q : Fin 4096), j = ix2 p q := ⟨j 0, j 1, eq_ix2 j⟩
  show k1_pay1 (F := Ideal) (iblk1 V c 0 t) (iblk1 V c 1 t) (iblk1 V c 2 t) (ix2 p q)
    = result V c (((cfg1.win 3).blk t).view.emb (ix2 p q))
  rw [Body.dense_at, out_block t p q]
  unfold result
  rw [LowRankDense.arr_ix2]
  unfold LowRankDense.dense
  simp only [h_block V c t, W_block V c t, bias_block V c t]

/-- An index of the array is in point `t`'s block iff each coordinate is in the block's range on its axis. -/
theorem mem_block (t : Fin cfg1.N) (i : S8192x4096.Idx) :
    i ∈ ((cfg1.win 3).blk t).view.set ↔ ∀ a : Fin 2, win1_3.index t a * S128x4096.size a ≤ (i a).val ∧ (i a).val < win1_3.index t a * S128x4096.size a + S128x4096.size a := by
  show i ∈ ((View.whole main_v6).slice (win1_3.rect t)).set ↔ _
  rw [View.set_slice_whole, Rect.mem_set_unit]
  exact Iff.rfl

/-- Every row is in the block of the point numbered by its quotient by 128. -/
theorem covered (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := block_onto ⟨(i 0).val / 128, by omega⟩
  have q0 : win1_3.index t (0 : Fin 2) = (i 0).val / 128 := ht
  obtain ⟨-, -, -, -, -, -, -, q1⟩ := block_index t
  refine ⟨t, flush1_3 t, ?_⟩
  rw [mem_block]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 4096 ≤ (i 1).val ∧ (i 1).val < win1_3.index t (1 : Fin 2) * 4096 + 4096; omega

/-- The array the second region leaves is `result` of the arrays it found. -/
theorem final (c : Dev nD) : (dat1 V c).arrAt 3 cfg1.N = result V c :=
  (dat1 V c).arrAt_eq_of_cover 3 (result V c) (fun t _ => flushed_eq V c t) covered

end Cert.KernelIdeal.Output

end
-- ==== Proof.Whole.lean ====
/-
  The kernel program's run with its result named.

  @main is a stretch of host operations (the two bias vectors laid out as rows [1, 4096]; H, G and W2 changed to bf16,
  which on extended reals changes nothing), then the two regions. Every unscoped buffer ends at the contents the
  regions' write-backs leave (`run_all`). The result buffer is the second region's output array, a function of the
  arrays that region found (Output.final); of those, the hidden activations are the first region's output array, a function of the
  arrays THAT region found (Hidden.final), and the others are untouched by the first region; what the first region found
  is the launch memory under the host operations. Composed, the result is `LowRankDense.layer` of the six arguments.
-/
import proofs.«111444_j24498493456624_2_alg».proof.Proof.Gen.KernelIdeal.Frame
import proofs.«111444_j24498493456624_2_alg».proof.Proof.Hidden
import proofs.«111444_j24498493456624_2_alg».proof.Proof.Output
import Idealize.ShloMosaic.Lib.StableHlo.Run
import Idealize.ShloMosaic.Lib.ValueLayout

noncomputable section

namespace Cert.KernelIdeal.Whole

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Every buffer at the end of the run -/

section AnyFloat

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    contents the last region's exit leaves (`W3`): the launch over the program's three segments, the last thread state
    read against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end AnyFloat

/-! ## The result buffer, on extended reals -/

variable (m : (ℓ : Loc nD τ sig) → Buf (Elt Ideal) ℓ) (ρ : Dev nD → PrngReg)

/-! ### What the first region finds: the launch memory under the host operations -/

theorem entry_x (c : Dev nD) : V1 m ρ c main_arg0 = m ((c.tc : Thread nD τ).loc main_arg0) := by
  show StableHlo.after hostOps0 (W0 m ρ c) (Proc.devRef .tc main_arg0) = _
  after_results <;> rfl

theorem entry_H (c : Dev nD) : (V1 m ρ c main_v2 : S16x4096.Idx → EReal) = m ((c.tc : Thread nD τ).loc main_arg2) := by
  show StableHlo.after hostOps0 (W0 m ρ c) (Proc.devRef .tc main_v2) = _
  after_results <;> rfl

theorem entry_G (c : Dev nD) : (V1 m ρ c main_v3 : S16x4096.Idx → EReal) = m ((c.tc : Thread nD τ).loc main_arg1) := by
  show StableHlo.after hostOps0 (W0 m ρ c) (Proc.devRef .tc main_v3) = _
  after_results <;> rfl

theorem entry_W (c : Dev nD) : (V1 m ρ c main_v4 : S4096x4096.Idx → EReal) = m ((c.tc : Thread nD τ).loc main_arg4) := by
  show StableHlo.after hostOps0 (W0 m ρ c) (Proc.devRef .tc main_v4) = _
  after_results <;> rfl

theorem entry_b1 (c : Dev nD) :
    (V1 m ρ c main_v0 : S1x4096.Idx → EReal) = shapeCast S1x4096 (m ((c.tc : Thread nD τ).loc main_arg3)) shapeCasts_S4096_S1x4096 := by
  show StableHlo.after hostOps0 (W0 m ρ c) (Proc.devRef .tc main_v0) = _
  after_results <;> rfl

theorem entry_b2 (c : Dev nD) :
    (V1 m ρ c main_v1 : S1x4096.Idx → EReal) = shapeCast S1x4096 (m ((c.tc : Thread nD τ).loc main_arg5)) shapeCasts_S4096_S1x4096 := by
  show StableHlo.after hostOps0 (W0 m ρ c) (Proc.devRef .tc main_v1) = _
  after_results <;> rfl

/-! ### What the second region finds -/

theorem mid_hidden (c : Dev nD) : V2 m ρ c main_v5 = Hidden.hidden (V1 m ρ) c :=
  (W2_arr m ρ c 4).trans (Hidden.final (V1 m ρ) c)

theorem mid_W (c : Dev nD) : V2 m ρ c main_v4 = V1 m ρ c main_v4 := W2_of_ne m ρ c main_v4 (by decide)

theorem mid_b2 (c : Dev nD) : V2 m ρ c main_v1 = V1 m ρ c main_v1 := W2_of_ne m ρ c main_v1 (by decide)

/-! ### The result -/

/-- The result buffer at the end of the run is the two layers of the six arguments. -/
theorem result_eq (c : Dev nD) :
    W3 m ρ c (Proc.devRef .tc main_v6)
      = LowRankDense.layer (m ((c.tc : Thread nD τ).loc main_arg0)) (m ((c.tc : Thread nD τ).loc main_arg2)) (m ((c.tc : Thread nD τ).loc main_arg1))
          (fun n => m ((c.tc : Thread nD τ).loc main_arg3) (ix1 n)) (m ((c.tc : Thread nD τ).loc main_arg4)) (fun o => m ((c.tc : Thread nD τ).loc main_arg5) (ix1 o)) := by
  refine ((W3_arr m ρ c 3).trans (Output.final (V2 m ρ) c)).trans ?_
  unfold Output.result
  rw [mid_hidden, mid_W, mid_b2]
  unfold Hidden.hidden
  rw [entry_x, entry_H, entry_G, entry_W, entry_b1, entry_b2]
  unfold LowRankDense.layer
  have hb1 : (fun n : Fin 4096 => shapeCast S1x4096 (m ((c.tc : Thread nD τ).loc main_arg3)) shapeCasts_S4096_S1x4096 (ix2 (0 : Fin 1) n))
      = fun n => m ((c.tc : Thread nD τ).loc main_arg3) (ix1 n) := funext fun n => shapeCast_a_1a_apply _ _ _ _
  have hb2 : (fun o : Fin 4096 => shapeCast S1x4096 (m ((c.tc : Thread nD τ).loc main_arg5)) shapeCasts_S4096_S1x4096 (ix2 (0 : Fin 1) o))
      = fun o => m ((c.tc : Thread nD τ).loc main_arg5) (ix1 o) := funext fun o => shapeCast_a_1a_apply _ _ _ _
  rw [hb1, hb2]

/-- The kernel program's run: the result buffer at `LowRankDense.layer` of the arguments, the arguments unchanged. -/
theorem run : θ_run defs (onTc (τ := τ) (main (F := Ideal))) ⟨m, fun _ => 0, ρ⟩ (fun r => ∀ c : Dev nD,
      r.2.mem ((c.tc : Thread nD τ).loc main_v6)
        = LowRankDense.layer (m ((c.tc : Thread nD τ).loc main_arg0)) (m ((c.tc : Thread nD τ).loc main_arg2)) (m ((c.tc : Thread nD τ).loc main_arg1))
            (fun n => m ((c.tc : Thread nD τ).loc main_arg3) (ix1 n)) (m ((c.tc : Thread nD τ).loc main_arg4)) (fun o => m ((c.tc : Thread nD τ).loc main_arg5) (ix1 o))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v6 (by decide))).trans (result_eq m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩)
    (run_all m ρ)

end Cert.KernelIdeal.Whole

end
-- ==== Proof.RefLayers.lean ====
/-
  The reference program's result is the same function of the arguments.

  Read one operation at a time: two matrix products (x against the rows of H, then against G), the bias copied down the
  rows, the maximum with zero, the dense product and its bias. Each product is the finite sum over its contracted
  coordinate, so element (b, o) of the result is `LowRankDense.dense` of the hidden activations, and element (b, n) of
  those is `LowRankDense.lowRank` of the arguments.
-/
import proofs.«111444_j24498493456624_2_alg».proof.Proof.Gen.ReferenceIdeal.Read
import proofs.«111444_j24498493456624_2_alg».proof.Proof.LowRankDense

noncomputable section

open scoped BigOperators

namespace Cert.ReferenceIdeal.Layers

open Cert.ReferenceIdeal Cert.ReferenceIdeal.Read Idealize.ShloMosaic Idealize.ShloMosaic.ValueIdx

variable (x0 : (⟨S8192x4096, .f32⟩ : BufTy).Contents (Elt Ideal)) (x1 x2 : (⟨S16x4096, .f32⟩ : BufTy).Contents (Elt Ideal))
  (x3 : (⟨S4096, .f32⟩ : BufTy).Contents (Elt Ideal)) (x4 : (⟨S4096x4096, .f32⟩ : BufTy).Contents (Elt Ideal))
  (x5 : (⟨S4096, .f32⟩ : BufTy).Contents (Elt Ideal))

/-! ## The operand indices of each operation, by coordinates -/

theorem xh_l (b : Fin 8192) (r : Fin 16) (k : Fin 4096) : lidx_main_v0 (ix2 b r) k = ix2 b k :=
  funext fun a => by match a with | ⟨0, _⟩ => rfl | ⟨1, _⟩ => rfl
theorem xh_r (b : Fin 8192) (r : Fin 16) (k : Fin 4096) : ridx_main_v0 (ix2 b r) k = ix2 r k :=
  funext fun a => by match a with | ⟨0, _⟩ => rfl | ⟨1, _⟩ => rfl
theorem hg_l (b : Fin 8192) (n : Fin 4096) (r : Fin 16) : lidx_main_v1 (ix2 b n) r = ix2 b r :=
  funext fun a => by match a with | ⟨0, _⟩ => rfl | ⟨1, _⟩ => rfl
theorem hg_r (b : Fin 8192) (n : Fin 4096) (r : Fin 16) : ridx_main_v1 (ix2 b n) r = ix2 r n :=
  funext fun a => by match a with | ⟨0, _⟩ => rfl | ⟨1, _⟩ => rfl
theorem bias1_idx (b : Fin 8192) (n : Fin 4096) : idx_main_v2 (idx_main_v3 (ix2 b n)) = ix1 n :=
  funext fun a => by match a with | ⟨0, _⟩ => rfl
theorem hw_l (b : Fin 8192) (o : Fin 4096) (n : Fin 4096) : lidx_main_v6 (ix2 b o) n = ix2 b n :=
  funext fun a => by match a with | ⟨0, _⟩ => rfl | ⟨1, _⟩ => rfl
theorem hw_r (b : Fin 8192) (o : Fin 4096) (n : Fin 4096) : ridx_main_v6 (ix2 b o) n = ix2 n o :=
  funext fun a => by match a with | ⟨0, _⟩ => rfl | ⟨1, _⟩ => rfl
theorem bias2_idx (b : Fin 8192) (o : Fin 4096) : idx_main_v7 (idx_main_v8 (ix2 b o)) = ix1 o :=
  funext fun a => by match a with | ⟨0, _⟩ => rfl

/-! ## The two layers -/

/-- The reference's hidden activations at (b, n). -/
theorem hidden_at (b : Fin 8192) (n : Fin 4096) :
    val_main_v5 (F := Ideal) x0 x1 x2 x3 (ix2 b n) = LowRankDense.lowRank x0 x2 x1 (fun n => x3 (ix1 n)) b n := by
  rw [val_main_v5_apply, val_main_v4_apply, val_main_v1_apply, val_main_v3_apply, val_main_v2_apply,
    val_main_call0_v0_apply, val_main_call0_cst_apply, bias1_idx]
  simp only [val_main_v0_apply, hg_l, hg_r, xh_l, xh_r]
  rfl

/-- The reference's result is the two layers of its arguments. -/
theorem result_eq :
    val_main_v9 (F := Ideal) x0 x1 x2 x3 x4 x5 = LowRankDense.layer x0 x2 x1 (fun n => x3 (ix1 n)) x4 (fun o => x5 (ix1 o)) := by
  funext i
  obtain ⟨b, o, rfl⟩ : ∃ (b : Fin 8192) (o : Fin 4096), i = ix2 b o := ⟨i 0, i 1, eq_ix2 i⟩
  rw [val_main_v9_apply, val_main_v6_apply, val_main_v8_apply, val_main_v7_apply, bias2_idx]
  simp only [hw_l, hw_r, hidden_at]
  rfl

end Cert.ReferenceIdeal.Layers

end
-- ==== Proof.lean ====
/-
  A low-rank layer followed by a dense layer, as a two-call TPU program and as plain matrix algebra:
  both end with the same array over the extended reals.

  For x [8192, 4096], H and G [16, 4096], b1 [4096], W2 [4096, 4096], b2 [4096],
    hidden = relu ((x · Hᵀ) · G + b1),   out = hidden · W2 + b2.
  The kernel program computes `hidden` in 32 blocks of 256 rows and `out` in 64 blocks of 128 rows, rounding operands to
  bf16 on the way into each matrix product; over the extended reals a rounding is the identity, a matrix product into a
  zero accumulator is the finite sum over the contracted coordinate, and a block of rows of such a product depends on the
  same rows of the left operand only. So each region leaves one whole-array function of what it found (Proof/Hidden.lean,
  Proof/Output.lean, over the element lemmas of Proof/Payloads.lean), the run composes them (Proof/Whole.lean), and the
  reference's operations read at an index give the same function (Proof/RefLayers.lean); the function itself is
  Proof/LowRankDense.lean. No law of the extended reals beyond the two sides being the same sums is used, so the
  finiteness of the inputs is not opened. The idealization rewrote no operation, so the fourth conjunct is `True`.
-/
import proofs.«111444_j24498493456624_2_alg».proof.Defs
import proofs.«111444_j24498493456624_2_alg».proof.Proof.Gen.Kernel
import proofs.«111444_j24498493456624_2_alg».proof.Proof.Gen.Kernel.Skeleton
import proofs.«111444_j24498493456624_2_alg».proof.Proof.Gen.Kernel.Launch
import proofs.«111444_j24498493456624_2_alg».proof.Proof.Gen.Kernel.Points
import proofs.«111444_j24498493456624_2_alg».proof.Proof.Gen.Kernel.Frame
import proofs.«111444_j24498493456624_2_alg».proof.Proof.Gen.KernelIdeal
import proofs.«111444_j24498493456624_2_alg».proof.Proof.Gen.KernelIdeal.Skeleton
import proofs.«111444_j24498493456624_2_alg».proof.Proof.Gen.KernelIdeal.Launch
import proofs.«111444_j24498493456624_2_alg».proof.Proof.Gen.KernelIdeal.Points
import proofs.«111444_j24498493456624_2_alg».proof.Proof.Gen.KernelIdeal.Frame
import proofs.«111444_j24498493456624_2_alg».proof.Proof.Gen.ReferenceIdeal
import proofs.«111444_j24498493456624_2_alg».proof.Proof.Gen.Pre_finite_inputs
import proofs.«111444_j24498493456624_2_alg».proof.Proof.Gen.ReferenceIdeal.Run
import proofs.«111444_j24498493456624_2_alg».proof.Proof.Gen.ReferenceIdeal.Read
import proofs.«111444_j24498493456624_2_alg».proof.Proof.Whole
import proofs.«111444_j24498493456624_2_alg».proof.Proof.RefLayers
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories agreeing on the six arguments both programs end with the result at the two layers of the arguments. -/
theorem algebraic : Cert.algebraic_KernelIdeal_ReferenceIdeal := by
  intro m ρ m' ρ' _ hagree
  refine ⟨fun c => Cert.LowRankDense.layer (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg1))
      (fun n => m ((c.tc : Thread Cert.KernelIdeal.nD Cert.KernelIdeal.τ).loc Cert.KernelIdeal.main_arg3) (ix1 n)) (m ((c.tc : Thread Cert.KernelIdeal.nD Cert.KernelIdeal.τ).loc Cert.KernelIdeal.main_arg4)) (fun o => m ((c.tc : Thread Cert.KernelIdeal.nD Cert.KernelIdeal.τ).loc Cert.KernelIdeal.main_arg5) (ix1 o)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, Cert.ReferenceIdeal.Layers.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
